-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S2 : Shape := ⟨1, ![2]⟩
abbrev S50000 : Shape := ⟨1, ![50000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg10 : FVec F S256x1 .f32) (main_arg11 : FVec F S1 .f32) (main_v33 : IVec S_ 1) : IVec S_ 1 :=
  let main_v34 : FVec F S256x1 .f32 := Host.absf main_arg10
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg11
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg7 : FVec F S128x256 .f32) (main_arg8 : FVec F S256 .f32) (main_arg9 : FVec F S128x256 .f32) (main_arg10 : FVec F S256x1 .f32) (main_arg11 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x256 .f32 := Host.absf main_arg7
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg8
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S128x256 .f32 := Host.absf main_arg9
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg10 main_arg11 main_v33

def fn {F : FTy → Type} [FloatOps F] (main_arg0 : FVec F S50000x128 .f32) (main_arg1 : IVec S2x600000 32) (main_arg2 : IVec S2 32) (main_arg3 : IVec S50000 32) (main_arg4 : FVec F S128x128 .f32) (main_arg5 : FVec F S128 .f32) (main_arg6 : FVec F S128x128 .f32) (main_arg7 : FVec F S128x256 .f32) (main_arg8 : FVec F S256 .f32) (main_arg9 : FVec F S128x256 .f32) (main_arg10 : FVec F S256x1 .f32) (main_arg11 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_v13 main_v16
-- ==== Kernel.lean ====
abbrev S50000x128 : Shape := ⟨2, ![50000, 128]⟩
abbrev S2x600000 : Shape := ⟨2, ![2, 600000]⟩
abbrev S2 : Shape := ⟨1, ![2]⟩
abbrev S50000 : Shape := ⟨1, ![50000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x1 : Shape := ⟨2, ![256, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩
abbrev S1x256 : Shape := ⟨2, ![1, 256]⟩
abbrev S50000x256 : Shape := ⟨2, ![50000, 256]⟩
abbrev S2000x256 : Shape := ⟨2, ![2000, 256]⟩
abbrev S1024x256 : Shape := ⟨2, ![1024, 256]⟩
abbrev S1024 : Shape := ⟨1, ![1024]⟩
abbrev S1024x1 : Shape := ⟨2, ![1024, 1]⟩
abbrev S1x1 : Shape := ⟨2, ![1, 1]⟩

abbrev nBuf : Space → Nat
  | .hbm => 92
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S2, .i32⟩
  | .hbm, ⟨3, _⟩ => ⟨S50000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x256, .f32⟩
  | .hbm, ⟨8, _⟩ => ⟨S256, .f32⟩
  | .hbm, ⟨9, _⟩ => ⟨S128x256, .f32⟩
  | .hbm, ⟨10, _⟩ => ⟨S256x1, .f32⟩
  | .hbm, ⟨11, _⟩ => ⟨S1, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .f32⟩
  | .hbm, ⟨26, _⟩ => ⟨S50000x128, .f32⟩
  | .hbm, ⟨27, _⟩ => ⟨S600000x1, .i32⟩
  | .hbm, ⟨28, _⟩ => ⟨S50000x128, .f32⟩
  | .hbm, ⟨29, _⟩ => ⟨S_, .f32⟩
  | .hbm, ⟨30, _⟩ => ⟨S600000, .f32⟩
  | .hbm, ⟨31, _⟩ => ⟨S_, .f32⟩
  | .hbm, ⟨32, _⟩ => ⟨S50000, .f32⟩
  | .hbm, ⟨33, _⟩ => ⟨S600000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000x128, .f32⟩
  | .hbm, ⟨52, _⟩ => ⟨S_, .f32⟩
  | .hbm, ⟨53, _⟩ => ⟨S50000x128, .f32⟩
  | .hbm, ⟨54, _⟩ => ⟨S600000x1, .i32⟩
  | .hbm, ⟨55, _⟩ => ⟨S50000x128, .f32⟩
  | .hbm, ⟨56, _⟩ => ⟨S_, .f32⟩
  | .hbm, ⟨57, _⟩ => ⟨S50000, .f32⟩
  | .hbm, ⟨58, _⟩ => ⟨S50000, .f32⟩
  | .hbm, ⟨59, _⟩ => ⟨S50000x1, .f32⟩
  | .hbm, ⟨60, _⟩ => ⟨S50000x128, .f32⟩
  | .hbm, ⟨61, _⟩ => ⟨S50000x128, .f32⟩
  | .hbm, ⟨62, _⟩ => ⟨S1x256, .f32⟩
  | .hbm, ⟨63, _⟩ => ⟨S50000x256, .f32⟩
  | .hbm, ⟨64, _⟩ => ⟨S_, .f32⟩
  | .hbm, ⟨65, _⟩ => ⟨S1024x256, .f32⟩
  | .hbm, ⟨66, _⟩ => ⟨S50000x1, .i32⟩
  | .hbm, ⟨67, _⟩ => ⟨S1024x256, .f32⟩
  | .hbm, ⟨68, _⟩ => ⟨S_, .f32⟩
  | .hbm, ⟨69, _⟩ => ⟨S50000, .f32⟩
  | .hbm, ⟨70, _⟩ => ⟨S_, .f32⟩
  | .hbm, ⟨71, _⟩ => ⟨S1024, .f32⟩
  | .hbm, ⟨72, _⟩ => ⟨S50000x1, .i32⟩
  | .hbm, ⟨73, _⟩ => ⟨S1024, .f32⟩
  | .hbm, ⟨74, _⟩ => ⟨S_, .f32⟩
  | .hbm, ⟨75, _⟩ => ⟨S1024, .f32⟩
  | .hbm, ⟨76, _⟩ => ⟨S1024, .f32⟩
  | .hbm, ⟨77, _⟩ => ⟨S1024x1, .f32⟩
  | .hbm, ⟨78, _⟩ => ⟨S1024x256, .f32⟩
  | .hbm, ⟨79, _⟩ => ⟨S1024x256, .f32⟩
  | .hbm, ⟨80, _⟩ => ⟨S1024x1, .f32⟩
  | .hbm, ⟨81, _⟩ => ⟨S1x1, .f32⟩
  | .hbm, ⟨82, _⟩ => ⟨S1024x1, .f32⟩
  | .hbm, ⟨83, _⟩ => ⟨S1024x1, .f32⟩
  | .hbm, ⟨84, _⟩ => ⟨S1024x1, .f32⟩
  | .hbm, ⟨85, _⟩ => ⟨S1024x1, .f32⟩
  | .hbm, ⟨86, _⟩ => ⟨S_, .f32⟩
  | .hbm, ⟨87, _⟩ => ⟨S1024x1, .f32⟩
  | .hbm, ⟨88, _⟩ => ⟨S1024x1, .f32⟩
  | .hbm, ⟨89, _⟩ => ⟨S_, .f32⟩
  | .hbm, ⟨90, _⟩ => ⟨S1024x1, .f32⟩
  | .hbm, ⟨91, _⟩ => ⟨S1024x1, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x256, .f32⟩
  | .local _ .vmem, ⟨14, _⟩ => ⟨S1x256, .f32⟩
  | .local _ .vmem, ⟨15, _⟩ => ⟨S128x256, .f32⟩
  | .local _ .vmem, ⟨16, _⟩ => ⟨S2000x256, .f32⟩
  | .local _ .vmem, ⟨17, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_11 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_cst_13 : Ref sig .tc := ⟨.hbm, 89, rfl⟩
abbrev main_v62 : Ref sig .tc := ⟨.hbm, 90, rfl⟩
abbrev main_v63 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  shapeCasts_S256_S1x256 : S256.ShapeCasts S1x256
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  bcast_S_S1024x256 : S_.BroadcastsInDim S1024x256 (![] : Fin 0 → Fin S1024x256.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  bcast_S_S1024x1 : S_.BroadcastsInDim S1024x1 (![] : Fin 0 → Fin S1024x1.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S2000x128_S128x128_S2000x128_1_0_0_1_n_n_wf : DotDims.WF S2000x128 S128x128 S2000x128 [1] [0] [0] [1] [] []
  dot_S2000x128_S128x256_S2000x256_1_0_0_1_n_n_wf : DotDims.WF S2000x128 S128x256 S2000x256 [1] [0] [0] [1] [] []
  scatter_S1024x256_S50000x1_S50000x256_1_0_0_1_wf : ScatterDims.WF S1024x256 S50000x1 S50000x256 [1] [0] [0] 1
  scatter_S1024_S50000x1_S50000_n_0_0_1_wf : ScatterDims.WF S1024 S50000x1 S50000 [] [0] [0] 1
  dot_S1024x256_S256x1_S1024x1_1_0_0_1_n_n_wf : DotDims.WF S1024x256 S256x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .f32 = 32 ∨ (Rect.block (s := S128x256) S128x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def scatter_S1024x256_S50000x1_S50000x256_1_0_0_1 : ScatterDims S1024x256 S50000x1 S50000x256 where
  updateWindowDims := [1]
  insertedWindowDims := [0]
  scatterDimsToOperandDims := [0]
  indexVectorDim := 1
  wf := scatter_S1024x256_S50000x1_S50000x256_1_0_0_1_wf
def scatter_S1024_S50000x1_S50000_n_0_0_1 : ScatterDims S1024 S50000x1 S50000 where
  updateWindowDims := []
  insertedWindowDims := [0]
  scatterDimsToOperandDims := [0]
  indexVectorDim := 1
  wf := scatter_S1024_S50000x1_S50000_n_0_0_1_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S2 : Shape := ⟨1, ![2]⟩
abbrev S50000 : Shape := ⟨1, ![50000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x1 : Shape := ⟨2, ![256, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S50000x256 : Shape := ⟨2, ![50000, 256]⟩
abbrev S1x256 : Shape := ⟨2, ![1, 256]⟩
abbrev S1024x256 : Shape := ⟨2, ![1024, 256]⟩
abbrev S1024 : Shape := ⟨1, ![1024]⟩
abbrev S1024x1 : Shape := ⟨2, ![1024, 1]⟩
abbrev S1x1 : Shape := ⟨2, ![1, 1]⟩

abbrev nBuf : Space → Nat
  | .hbm => 129
  | .vmem => 0
  | .smem => 0
  | _ => 0

abbrev hbmTy0_0 (i : Nat) : BufTy := match i % 128 with
  | 0 => ⟨S50000x128, .f32⟩
  | 1 => ⟨S2x600000, .i32⟩
  | 2 => ⟨S2, .i32⟩
  | 3 => ⟨S50000, .i32⟩
  | 4 => ⟨S128x128, .f32⟩
  | 5 => ⟨S128, .f32⟩
  | 6 => ⟨S128x128, .f32⟩
  | 7 => ⟨S128x256, .f32⟩
  | 8 => ⟨S256, .f32⟩
  | 9 => ⟨S128x256, .f32⟩
  | 10 => ⟨S256x1, .f32⟩
  | 11 => ⟨S1, .f32⟩
  | 12 => ⟨S1x600000, .i32⟩
  | 13 => ⟨S600000, .i32⟩
  | 14 => ⟨S1x600000, .i32⟩
  | 15 => ⟨S600000, .i32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S600000x128, .f32⟩
  | 25 => ⟨S_, .f32⟩
  | 26 => ⟨S50000x128, .f32⟩
  | 27 => ⟨S600000x1, .i32⟩
  | 28 => ⟨S50000x128, .f32⟩
  | 29 => ⟨S_, .f32⟩
  | 30 => ⟨S600000, .f32⟩
  | 31 => ⟨S_, .f32⟩
  | 32 => ⟨S50000, .f32⟩
  | 33 => ⟨S600000x1, .i32⟩
  | 34 => ⟨S50000, .f32⟩
  | 35 => ⟨S_, .f32⟩
  | 36 => ⟨S50000, .f32⟩
  | 37 => ⟨S50000, .f32⟩
  | 38 => ⟨S50000x1, .f32⟩
  | 39 => ⟨S50000x128, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S50000x128, .f32⟩
  | 46 => ⟨S50000x128, .f32⟩
  | 47 => ⟨S50000x128, .f32⟩
  | 48 => ⟨S_, .f32⟩
  | 49 => ⟨S50000, .f32⟩
  | 50 => ⟨S50000x1, .f32⟩
  | 51 => ⟨S50000x1, .f32⟩
  | 52 => ⟨S_, .f32⟩
  | 53 => ⟨S50000x1, .f32⟩
  | 54 => ⟨S50000x1, .f32⟩
  | 55 => ⟨S50000x128, .f32⟩
  | 56 => ⟨S50000x128, .f32⟩
  | 57 => ⟨S_, .f32⟩
  | 58 => ⟨S50000x128, .f32⟩
  | 59 => ⟨S50000x128, .f32⟩
  | 60 => ⟨S_, .i32⟩
  | 61 => ⟨S600000, .i32⟩
  | 62 => ⟨S600000, .i1⟩
  | 63 => ⟨S_, .i32⟩
  | 64 => ⟨S600000, .i32⟩
  | 65 => ⟨S600000, .i32⟩
  | 66 => ⟨S600000, .i32⟩
  | 67 => ⟨S600000x1, .i32⟩
  | 68 => ⟨S600000x128, .f32⟩
  | 69 => ⟨S_, .f32⟩
  | 70 => ⟨S50000x128, .f32⟩
  | 71 => ⟨S600000x1, .i32⟩
  | 72 => ⟨S50000x128, .f32⟩
  | 73 => ⟨S_, .f32⟩
  | 74 => ⟨S600000, .f32⟩
  | 75 => ⟨S_, .f32⟩
  | 76 => ⟨S50000, .f32⟩
  | 77 => ⟨S600000x1, .i32⟩
  | 78 => ⟨S50000, .f32⟩
  | 79 => ⟨S_, .f32⟩
  | 80 => ⟨S50000, .f32⟩
  | 81 => ⟨S50000, .f32⟩
  | 82 => ⟨S50000x1, .f32⟩
  | 83 => ⟨S50000x128, .f32⟩
  | 84 => ⟨S50000x128, .f32⟩
  | 85 => ⟨S50000x256, .f32⟩
  | 86 => ⟨S1x256, .f32⟩
  | 87 => ⟨S50000x256, .f32⟩
  | 88 => ⟨S50000x256, .f32⟩
  | 89 => ⟨S50000x256, .f32⟩
  | 90 => ⟨S50000x256, .f32⟩
  | 91 => ⟨S50000x256, .f32⟩
  | 92 => ⟨S_, .f32⟩
  | 93 => ⟨S50000, .f32⟩
  | 94 => ⟨S50000x1, .f32⟩
  | 95 => ⟨S50000x1, .f32⟩
  | 96 => ⟨S_, .f32⟩
  | 97 => ⟨S50000x1, .f32⟩
  | 98 => ⟨S50000x1, .f32⟩
  | 99 => ⟨S50000x256, .f32⟩
  | 100 => ⟨S50000x256, .f32⟩
  | 101 => ⟨S_, .f32⟩
  | 102 => ⟨S1024x256, .f32⟩
  | 103 => ⟨S50000x1, .i32⟩
  | 104 => ⟨S1024x256, .f32⟩
  | 105 => ⟨S_, .f32⟩
  | 106 => ⟨S50000, .f32⟩
  | 107 => ⟨S_, .f32⟩
  | 108 => ⟨S1024, .f32⟩
  | 109 => ⟨S50000x1, .i32⟩
  | 110 => ⟨S1024, .f32⟩
  | 111 => ⟨S_, .f32⟩
  | 112 => ⟨S1024, .f32⟩
  | 113 => ⟨S1024, .f32⟩
  | 114 => ⟨S1024x1, .f32⟩
  | 115 => ⟨S1024x256, .f32⟩
  | 116 => ⟨S1024x256, .f32⟩
  | 117 => ⟨S1024x1, .f32⟩
  | 118 => ⟨S1x1, .f32⟩
  | 119 => ⟨S1024x1, .f32⟩
  | 120 => ⟨S1024x1, .f32⟩
  | 121 => ⟨S1024x1, .f32⟩
  | 122 => ⟨S1024x1, .f32⟩
  | 123 => ⟨S_, .f32⟩
  | 124 => ⟨S1024x1, .f32⟩
  | 125 => ⟨S1024x1, .f32⟩
  | 126 => ⟨S_, .f32⟩
  | 127 => ⟨S1024x1, .f32⟩
  | _ => ⟨S50000x128, .f32⟩

abbrev hbmTy0_1 (i : Nat) : BufTy := match i % 128 with
  | 0 => ⟨S1024x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call0_cst : Ref sig .tc := ⟨.hbm, 57, rfl⟩
abbrev main_call0_v0 : Ref sig .tc := ⟨.hbm, 58, rfl⟩
abbrev main_v37 : Ref sig .tc := ⟨.hbm, 59, rfl⟩
abbrev main_c_6 : Ref sig .tc := ⟨.hbm, 60, rfl⟩
abbrev main_v38 : Ref sig .tc := ⟨.hbm, 61, rfl⟩
abbrev main_v39 : Ref sig .tc := ⟨.hbm, 62, rfl⟩
abbrev main_c_7 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_12 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_13 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_15 : Ref sig .tc := ⟨.hbm, 105, rfl⟩
abbrev main_v74 : Ref sig .tc := ⟨.hbm, 106, rfl⟩
abbrev main_cst_16 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_17 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_18 : Ref sig .tc := ⟨.hbm, 123, rfl⟩
abbrev main_v89 : Ref sig .tc := ⟨.hbm, 124, rfl⟩
abbrev main_v90 : Ref sig .tc := ⟨.hbm, 125, rfl⟩
abbrev main_cst_19 : Ref sig .tc := ⟨.hbm, 126, rfl⟩
abbrev main_v91 : Ref sig .tc := ⟨.hbm, 127, rfl⟩
abbrev main_v92 : Ref sig .tc := ⟨.hbm, 128, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  bcast_S50000x1_S50000x256_0_1 : S50000x1.BroadcastsInDim S50000x256 (![0, 1] : Fin 2 → Fin S50000x256.rank)
  bcast_S_S1024x256 : S_.BroadcastsInDim S1024x256 (![] : Fin 0 → Fin S1024x256.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  bcast_S_S1024x1 : S_.BroadcastsInDim S1024x1 (![] : Fin 0 → Fin S1024x1.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  dot_S50000x128_S128x256_S50000x256_1_0_0_1_n_n_wf : DotDims.WF S50000x128 S128x256 S50000x256 [1] [0] [0] [1] [] []
  scatter_S1024x256_S50000x1_S50000x256_1_0_0_1_wf : ScatterDims.WF S1024x256 S50000x1 S50000x256 [1] [0] [0] 1
  scatter_S1024_S50000x1_S50000_n_0_0_1_wf : ScatterDims.WF S1024 S50000x1 S50000 [] [0] [0] 1
  dot_S1024x256_S256x1_S1024x1_1_0_0_1_n_n_wf : DotDims.WF S1024x256 S256x1 S1024x1 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S1024x256_S50000x1_S50000x256_1_0_0_1 : ScatterDims S1024x256 S50000x1 S50000x256 where
  updateWindowDims := [1]
  insertedWindowDims := [0]
  scatterDimsToOperandDims := [0]
  indexVectorDim := 1
  wf := scatter_S1024x256_S50000x1_S50000x256_1_0_0_1_wf
def scatter_S1024_S50000x1_S50000_n_0_0_1 : ScatterDims S1024 S50000x1 S50000 where
  updateWindowDims := []
  insertedWindowDims := [0]
  scatterDimsToOperandDims := [0]
  indexVectorDim := 1
  wf := scatter_S1024_S50000x1_S50000_n_0_0_1_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf

class Facts : Prop extends Facts₀ where

variable [Facts]
-- ==== Proof.KernelRun.lean ====
/-
  The idealized kernel's run, with its result named.

  @main is five segments: a stretch of host operations, the first layer's grid of 25 row tiles, a second stretch, the second
  layer's grid, and a last stretch that pools and applies the logistic function. Every weakly fair execution runs them in
  order and terminates; the final memory holds, at every buffer that outlives its region, the contents the last boundary
  of the fold through the segments assigns it. Read at the result buffer this names the result; read at an argument it
  gives the argument back unchanged.
-/
import proofs.«163023_j41927470744091_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and every argument as launched. -/
theorem run : θ_run defs (onTc (τ := τ) (main (F := F))) ⟨m, fun _ => 0, ρ⟩ (fun r => ∀ c : Dev nD,
      r.2.mem ((c.tc : Thread nD τ).loc main_v63) = W5 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v63 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c)⟩)

end Cert.KernelIdeal.Result

end
-- ==== Proof.KernelFold.lean ====
/-
  The fold through the idealized kernel's segments, read at the buffers the value depends on.

  Before the first grid the host gathers each edge's source row, adds it into the edge's target row, counts the edges per
  target and divides: the neighbourhood means. These operations are, one for one, the reference's own first operations on
  the same arguments, so the means buffer holds the reference's means; so do the two index vectors and the edge counts,
  which the second stretch reads again. Between the grids the same operations are applied to the first layer's output; after
  the second grid the last stretch pools by graph and applies the logistic function. Each stretch is the reference's
  stretch of operations on equal inputs, so given that each grid leaves the reference's layer array (the two hypotheses
  below), the result buffer holds the reference's result.
-/
import proofs.«163023_j41927470744091_1_alg».proof.Proof.Gen.KernelIdeal.Frame
import proofs.«163023_j41927470744091_1_alg».proof.Proof.Gen.ReferenceIdeal.Read
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen
open Cert.ReferenceIdeal.Read (val_main_v1 val_main_v3 val_main_v17 val_main_v22 val_main_v37 val_main_v56 val_main_v70 val_main_v92)

variable (m : (ℓ : Loc nD τ sig) → Buf (Elt Ideal) ℓ) (ρ : Dev nD → PrngReg)

/-- A buffer no operation of a stretch writes holds after the stretch what it held before. -/
macro "not_written " ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, StableHlo.binaryIndexed_writes, Finset.mem_singleton]
             repeat' apply And.intro
             all_goals exact StableHlo.devRef_ne_of_ne (by decide)))

/-! ## After the first stretch -/

set_option maxHeartbeats 4000000 in
theorem W1_mean (c : Dev nD) :
    (W1 m ρ c (Proc.devRef .tc main_v22) : FVec Ideal S50000x128 .f32) = val_main_v22 (F := Ideal) (m ((c : Thread nD τ).loc main_arg0)) (m ((c : Thread nD τ).loc main_arg1)) := by
  show StableHlo.after hostOps0 (W0 m ρ c) (Proc.devRef .tc main_v22) = _
  after_results_simp
  rfl

set_option maxHeartbeats 4000000 in
theorem W1_bias (c : Dev nD) :
    (W1 m ρ c (Proc.devRef .tc main_v23) : FVec Ideal S1x128 .f32) = shapeCast S1x128 (m ((c : Thread nD τ).loc main_arg5)) shapeCasts_S128_S1x128 := by
  show StableHlo.after hostOps0 (W0 m ρ c) (Proc.devRef .tc main_v23) = _
  after_results_simp
  rfl

set_option maxHeartbeats 4000000 in
theorem W1_src (c : Dev nD) :
    (W1 m ρ c (Proc.devRef .tc main_v1) : (⟨S600000, .i32⟩ : BufTy).Contents (Elt Ideal)) = val_main_v1 (F := Ideal) (m ((c : Thread nD τ).loc main_arg1)) := by
  show StableHlo.after hostOps0 (W0 m ρ c) (Proc.devRef .tc main_v1) = _
  after_results_simp
  rfl

set_option maxHeartbeats 4000000 in
theorem W1_dst (c : Dev nD) :
    (W1 m ρ c (Proc.devRef .tc main_v3) : (⟨S600000, .i32⟩ : BufTy).Contents (Elt Ideal)) = val_main_v3 (F := Ideal) (m ((c : Thread nD τ).loc main_arg1)) := by
  show StableHlo.after hostOps0 (W0 m ρ c) (Proc.devRef .tc main_v3) = _
  after_results_simp
  rfl

set_option maxHeartbeats 4000000 in
theorem W1_count (c : Dev nD) :
    (W1 m ρ c (Proc.devRef .tc main_v17) : FVec Ideal S50000 .f32) = val_main_v17 (F := Ideal) (m ((c : Thread nD τ).loc main_arg1)) := by
  show StableHlo.after hostOps0 (W0 m ρ c) (Proc.devRef .tc main_v17) = _
  after_results_simp
  rfl

theorem W1_arg0 (c : Dev nD) : W1 m ρ c (Proc.devRef .tc main_arg0) = m ((c : Thread nD τ).loc main_arg0) :=
  (show W1 m ρ c (Proc.devRef .tc main_arg0) = W0 m ρ c (Proc.devRef .tc main_arg0) by
    show StableHlo.after hostOps0 (W0 m ρ c) (Proc.devRef .tc main_arg0) = _
    not_written hostOps0).trans rfl
theorem W1_arg3 (c : Dev nD) : W1 m ρ c (Proc.devRef .tc main_arg3) = m ((c : Thread nD τ).loc main_arg3) :=
  (show W1 m ρ c (Proc.devRef .tc main_arg3) = W0 m ρ c (Proc.devRef .tc main_arg3) by
    show StableHlo.after hostOps0 (W0 m ρ c) (Proc.devRef .tc main_arg3) = _
    not_written hostOps0).trans rfl
theorem W1_arg4 (c : Dev nD) : W1 m ρ c (Proc.devRef .tc main_arg4) = m ((c : Thread nD τ).loc main_arg4) :=
  (show W1 m ρ c (Proc.devRef .tc main_arg4) = W0 m ρ c (Proc.devRef .tc main_arg4) by
    show StableHlo.after hostOps0 (W0 m ρ c) (Proc.devRef .tc main_arg4) = _
    not_written hostOps0).trans rfl
theorem W1_arg6 (c : Dev nD) : W1 m ρ c (Proc.devRef .tc main_arg6) = m ((c : Thread nD τ).loc main_arg6) :=
  (show W1 m ρ c (Proc.devRef .tc main_arg6) = W0 m ρ c (Proc.devRef .tc main_arg6) by
    show StableHlo.after hostOps0 (W0 m ρ c) (Proc.devRef .tc main_arg6) = _
    not_written hostOps0).trans rfl
theorem W1_arg7 (c : Dev nD) : W1 m ρ c (Proc.devRef .tc main_arg7) = m ((c : Thread nD τ).loc main_arg7) :=
  (show W1 m ρ c (Proc.devRef .tc main_arg7) = W0 m ρ c (Proc.devRef .tc main_arg7) by
    show StableHlo.after hostOps0 (W0 m ρ c) (Proc.devRef .tc main_arg7) = _
    not_written hostOps0).trans rfl
theorem W1_arg8 (c : Dev nD) : W1 m ρ c (Proc.devRef .tc main_arg8) = m ((c : Thread nD τ).loc main_arg8) :=
  (show W1 m ρ c (Proc.devRef .tc main_arg8) = W0 m ρ c (Proc.devRef .tc main_arg8) by
    show StableHlo.after hostOps0 (W0 m ρ c) (Proc.devRef .tc main_arg8) = _
    not_written hostOps0).trans rfl
theorem W1_arg9 (c : Dev nD) : W1 m ρ c (Proc.devRef .tc main_arg9) = m ((c : Thread nD τ).loc main_arg9) :=
  (show W1 m ρ c (Proc.devRef .tc main_arg9) = W0 m ρ c (Proc.devRef .tc main_arg9) by
    show StableHlo.after hostOps0 (W0 m ρ c) (Proc.devRef .tc main_arg9) = _
    not_written hostOps0).trans rfl
theorem W1_arg10 (c : Dev nD) : W1 m ρ c (Proc.devRef .tc main_arg10) = m ((c : Thread nD τ).loc main_arg10) :=
  (show W1 m ρ c (Proc.devRef .tc main_arg10) = W0 m ρ c (Proc.devRef .tc main_arg10) by
    show StableHlo.after hostOps0 (W0 m ρ c) (Proc.devRef .tc main_arg10) = _
    not_written hostOps0).trans rfl
theorem W1_arg11 (c : Dev nD) : W1 m ρ c (Proc.devRef .tc main_arg11) = m ((c : Thread nD τ).loc main_arg11) :=
  (show W1 m ρ c (Proc.devRef .tc main_arg11) = W0 m ρ c (Proc.devRef .tc main_arg11) by
    show StableHlo.after hostOps0 (W0 m ρ c) (Proc.devRef .tc main_arg11) = _
    not_written hostOps0).trans rfl

/-! ## After the first grid: its output array is new, every other buffer is as it was -/

theorem W2_arg3 (c : Dev nD) : W2 m ρ c (Proc.devRef .tc main_arg3) = m ((c : Thread nD τ).loc main_arg3) :=
  (W2_of_ne m ρ c main_arg3 (by decide)).trans (W1_arg3 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg11 (c : Dev nD) : W2 m ρ c (Proc.devRef .tc main_arg11) = m ((c : Thread nD τ).loc main_arg11) :=
  (W2_of_ne m ρ c main_arg11 (by decide)).trans (W1_arg11 m ρ c)

theorem W2_src (c : Dev nD) :
    (W2 m ρ c (Proc.devRef .tc main_v1) : (⟨S600000, .i32⟩ : BufTy).Contents (Elt Ideal)) = val_main_v1 (F := Ideal) (m ((c : Thread nD τ).loc main_arg1)) :=
  (W2_of_ne m ρ c main_v1 (by decide)).trans (W1_src m ρ c)
theorem W2_dst (c : Dev nD) :
    (W2 m ρ c (Proc.devRef .tc main_v3) : (⟨S600000, .i32⟩ : BufTy).Contents (Elt Ideal)) = val_main_v3 (F := Ideal) (m ((c : Thread nD τ).loc main_arg1)) :=
  (W2_of_ne m ρ c main_v3 (by decide)).trans (W1_dst m ρ c)
theorem W2_count (c : Dev nD) :
    (W2 m ρ c (Proc.devRef .tc main_v17) : FVec Ideal S50000 .f32) = val_main_v17 (F := Ideal) (m ((c : Thread nD τ).loc main_arg1)) :=
  (W2_of_ne m ρ c main_v17 (by decide)).trans (W1_count m ρ c)

/-! ## After the second stretch, given the first layer's array -/

section AfterLayer1

variable (c : Dev nD) (h24 : (W2 m ρ c (Proc.devRef .tc main_v24) : FVec Ideal S50000x128 .f32) = val_main_v37 (F := Ideal) (m ((c : Thread nD τ).loc main_arg0)) (m ((c : Thread nD τ).loc main_arg1)) (m ((c : Thread nD τ).loc main_arg4)) (m ((c : Thread nD τ).loc main_arg5)) (m ((c : Thread nD τ).loc main_arg6)))
include h24

set_option maxHeartbeats 4000000 in
theorem W3_mean : (W3 m ρ c (Proc.devRef .tc main_v39) : FVec Ideal S50000x128 .f32) = val_main_v56 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  show StableHlo.after hostOps1 (W2 m ρ c) (Proc.devRef .tc main_v39) = _
  after_results_simp
  rw [h24, W2_src, W2_dst, W2_count]
  rfl

theorem W3_layer1 : (W3 m ρ c (Proc.devRef .tc main_v24) : FVec Ideal S50000x128 .f32) = val_main_v37 (F := Ideal) (m ((c : Thread nD τ).loc main_arg0)) (m ((c : Thread nD τ).loc main_arg1)) (m ((c : Thread nD τ).loc main_arg4)) (m ((c : Thread nD τ).loc main_arg5)) (m ((c : Thread nD τ).loc main_arg6)) :=
  (show W3 m ρ c (Proc.devRef .tc main_v24) = W2 m ρ c (Proc.devRef .tc main_v24) by
    show StableHlo.after hostOps1 (W2 m ρ c) (Proc.devRef .tc main_v24) = _
    not_written hostOps1).trans h24

end AfterLayer1

set_option maxHeartbeats 4000000 in
theorem W3_bias (c : Dev nD) :
    (W3 m ρ c (Proc.devRef .tc main_v40) : FVec Ideal S1x256 .f32) = shapeCast S1x256 (m ((c : Thread nD τ).loc main_arg8)) shapeCasts_S256_S1x256 := by
  show StableHlo.after hostOps1 (W2 m ρ c) (Proc.devRef .tc main_v40) = _
  after_results_simp
  rw [W2_arg8]
  rfl

theorem W3_arg3 (c : Dev nD) : W3 m ρ c (Proc.devRef .tc main_arg3) = m ((c : Thread nD τ).loc main_arg3) :=
  (show W3 m ρ c (Proc.devRef .tc main_arg3) = W2 m ρ c (Proc.devRef .tc main_arg3) by
    show StableHlo.after hostOps1 (W2 m ρ c) (Proc.devRef .tc main_arg3) = _
    not_written hostOps1).trans (W2_arg3 m ρ c)
theorem W3_arg7 (c : Dev nD) : W3 m ρ c (Proc.devRef .tc main_arg7) = m ((c : Thread nD τ).loc main_arg7) :=
  (show W3 m ρ c (Proc.devRef .tc main_arg7) = W2 m ρ c (Proc.devRef .tc main_arg7) by
    show StableHlo.after hostOps1 (W2 m ρ c) (Proc.devRef .tc main_arg7) = _
    not_written hostOps1).trans (W2_arg7 m ρ c)
theorem W3_arg9 (c : Dev nD) : W3 m ρ c (Proc.devRef .tc main_arg9) = m ((c : Thread nD τ).loc main_arg9) :=
  (show W3 m ρ c (Proc.devRef .tc main_arg9) = W2 m ρ c (Proc.devRef .tc main_arg9) by
    show StableHlo.after hostOps1 (W2 m ρ c) (Proc.devRef .tc main_arg9) = _
    not_written hostOps1).trans (W2_arg9 m ρ c)
theorem W3_arg10 (c : Dev nD) : W3 m ρ c (Proc.devRef .tc main_arg10) = m ((c : Thread nD τ).loc main_arg10) :=
  (show W3 m ρ c (Proc.devRef .tc main_arg10) = W2 m ρ c (Proc.devRef .tc main_arg10) by
    show StableHlo.after hostOps1 (W2 m ρ c) (Proc.devRef .tc main_arg10) = _
    not_written hostOps1).trans (W2_arg10 m ρ c)
theorem W3_arg11 (c : Dev nD) : W3 m ρ c (Proc.devRef .tc main_arg11) = m ((c : Thread nD τ).loc main_arg11) :=
  (show W3 m ρ c (Proc.devRef .tc main_arg11) = W2 m ρ c (Proc.devRef .tc main_arg11) by
    show StableHlo.after hostOps1 (W2 m ρ c) (Proc.devRef .tc main_arg11) = _
    not_written hostOps1).trans (W2_arg11 m ρ c)

/-! ## After the second grid and the last stretch, given the second layer's array -/

theorem W4_arg3 (c : Dev nD) : W4 m ρ c (Proc.devRef .tc main_arg3) = m ((c : Thread nD τ).loc main_arg3) :=
  (W4_of_ne m ρ c main_arg3 (by decide)).trans (W3_arg3 m ρ c)
theorem W4_arg10 (c : Dev nD) : W4 m ρ c (Proc.devRef .tc main_arg10) = m ((c : Thread nD τ).loc main_arg10) :=
  (W4_of_ne m ρ c main_arg10 (by decide)).trans (W3_arg10 m ρ c)
theorem W4_arg11 (c : Dev nD) : W4 m ρ c (Proc.devRef .tc main_arg11) = m ((c : Thread nD τ).loc main_arg11) :=
  (W4_of_ne m ρ c main_arg11 (by decide)).trans (W3_arg11 m ρ c)

set_option maxHeartbeats 4000000 in
theorem W5_result (c : Dev nD) (h41 : (W4 m ρ c (Proc.devRef .tc main_v41) : FVec Ideal S50000x256 .f32) = val_main_v70 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :
    (W5 m ρ c (Proc.devRef .tc main_v63) : FVec Ideal S1024x1 .f32) = val_main_v92 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps2 (W4 m ρ c) (Proc.devRef .tc main_v63) = _
  after_results_simp
  rw [h41, W4_arg3, W4_arg10, W4_arg11]
  rfl

end Cert.KernelIdeal.Fold

end
-- ==== Proof.RowSpec.lean ====
/-
  The mathematics both programs compute for one node, as plain functions on the extended reals.

  A graph-convolution layer sends node `r` to a row of `D` numbers: the neighbourhood mean `a` of the node's
  incoming messages and the node's own features `x` (both rows of 128 numbers) are each multiplied by a 128 × D weight
  matrix, a bias row is added between the two products, and the row is scaled to unit Euclidean length, the length
  floored at a small positive constant so that a zero row stays zero.
-/
import Idealize.ShloMosaic.PureOps.Ideal

noncomputable section

namespace Cert.RowSpec

open Idealize.ShloMosaic

/-- The row before scaling: `(Σₖ a k · wl k q) + b q + Σₖ x k · wr k q`, associated as both programs associate it. -/
def combine {D : ℕ} (a x : Fin 128 → EReal) (wl wr : Fin 128 → Fin D → EReal) (b : Fin D → EReal) (q : Fin D) : EReal :=
  (∑ k : Fin 128, a k * wl k q) + b q + ∑ k : Fin 128, x k * wr k q

/-- The floor under a row's length: the single-precision number nearest to 10⁻¹², as both programs spell it. -/
abbrev lengthFloor : EReal := Ideal.ofBits .f32 0x2B8CBCCC#32

/-- Entry `q` of the row `o` divided by the row's Euclidean length `√(Σⱼ o j · o j)`, the length floored. -/
def unitRow {D : ℕ} (o : Fin D → EReal) (q : Fin D) : EReal :=
  Ideal.div (o q) (max (Ideal.sqrt (∑ j : Fin D, o j * o j)) lengthFloor)

/-- The zero both programs clamp the first layer's output against. -/
abbrev zeroWord : EReal := Ideal.ofBits .f32 0x00000000#32

end Cert.RowSpec

end
-- ==== Proof.PayloadAtIndex.lean ====
/-
  The kernel bodies' stored values, read at one entry.

  Each body loads a tile of 2000 rows of the neighbourhood means and of the node features, the two weight matrices and the
  bias row, and stores one tile of the layer's output. Entry `(p, q)` of the stored tile depends only on row `p` of the
  two loaded tiles: it is the unit-length scaling of the combined row (`Cert.RowSpec`), clamped at zero in the first layer.
-/
import proofs.«163023_j41927470744091_1_alg».proof.Proof.Gen.KernelIdeal.Skeleton
import proofs.«163023_j41927470744091_1_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Idealize.ShloMosaic Idealize.ShloMosaic.ValueIdx Cert.KernelIdeal Cert.KernelIdeal.Gen Cert.RowSpec

/-! ## The operations that are not entrywise, read at an entry -/

/-- A column of `n` numbers viewed as an `n × 1` matrix reads, at `(p, u)`, the column at `p`. -/
private theorem colCast_apply {α : Type} {n : ℕ} (x : (⟨1, ![n]⟩ : Shape).Idx → α)
    (h : (⟨1, ![n]⟩ : Shape).ShapeCasts ⟨2, ![n, 1]⟩) (p : Fin n) (u : Fin 1) :
    shapeCast ⟨2, ![n, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `n × 1` matrix repeated along `D` columns reads, at `(p, q)`, its entry `(p, 0)`. -/
private theorem colBroadcast_apply {α : Type} {n D : ℕ} (hn : n ≠ 1) (x : (⟨2, ![n, 1]⟩ : Shape).Idx → α)
    (h : (⟨2, ![n, 1]⟩ : Shape).Broadcasts ⟨2, ![n, D]⟩) (p : Fin n) (q : Fin D) :
    broadcastTo ⟨2, ![n, D]⟩ x h (ix2 p q) = x (ix2 p (0 : Fin 1)) := by
  refine broadcastTo_apply x h (ix2 p q) (ix2 p (0 : Fin 1)) fun ax => ?_
  match ax with
  | ⟨0, _⟩ =>
    show p.val = if n = 1 then 0 else p.val
    rw [if_neg hn]
  | ⟨1, _⟩ =>
    show (0 : ℕ) = if (1 : ℕ) = 1 then 0 else q.val
    rw [if_pos rfl]

/-- The sum along the rows of a `2000 × D` matrix reads, at `p`, the sum of row `p`. -/
private theorem rowSum_apply {D : ℕ} (src : FVec Ideal ⟨2, ![2000, D]⟩ .f32)
    (h : (⟨2, ![2000, D]⟩ : Shape).Reduces [1] ⟨1, ![2000]⟩) (hφ : FKind.Formats .f32)
    (hacc : (0x00000000#32 : BitVec 32) = FKind.add.neutral .f32 hφ) (p : Fin 2000) :
    multiReduction .add [1] ⟨1, ![2000]⟩ src 0x00000000#32 h hφ hacc (ix1 p) = ∑ j : Fin D, src (ix2 p j) := by
  refine (Ideal.multiReduction_add_single src 0x00000000#32 h hφ hacc (ix1 p)).trans ?_
  refine Finset.sum_congr rfl fun j _ => congrArg src ?_
  funext a
  match a with
  | ⟨0, _⟩ => rfl
  | ⟨1, _⟩ => rfl

private theorem matmul128_lhs0 (i : S2000x128.Idx) (c : dot_S2000x128_S128x128_S2000x128_1_0_0_1_n_n.contr.Idx) : (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

private theorem matmul128_rhs1 (i : S2000x128.Idx) (c : dot_S2000x128_S128x128_S2000x128_1_0_0_1_n_n.contr.Idx) : (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The product of a `2000 × 128` matrix with a `128 × 128` one, accumulated into zero, reads at `(p, q)` the sum over
    `k` of the products of the entries `(p, k)` and `(k, q)`. -/
private theorem matmul128_apply {φ₁ φ₂ : FTy} (A : FVec Ideal S2000x128 φ₁) (W : FVec Ideal S128x128 φ₂) (p : Fin 2000) (q : Fin 128) :
    matmul dot_S2000x128_S128x128_S2000x128_1_0_0_1_n_n none A W (constant (F := Ideal) S2000x128 .f32 0x00000000#32) (ix2 p q)
      = ∑ k : Fin 128, A (ix2 p k) * W (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k :=
    funext fun a => Fin.ext (by
      match a with
      | ⟨0, _⟩ => exact matmul128_lhs0 _ _
      | ⟨1, _⟩ => exact (dot_S2000x128_S128x128_S2000x128_1_0_0_1_n_n.lhsIdx_val_of_single rfl (ix2 p q) _).trans hk)
  have er : dot_S2000x128_S128x128_S2000x128_1_0_0_1_n_n.rhsIdx (ix2 p q) ((contrEquiv1 dot_S2000x128_S128x128_S2000x128_1_0_0_1_n_n 128 rfl rfl).symm k) = ix2 k q :=
    funext fun a => Fin.ext (by
      match a with
      | ⟨0, _⟩ => exact (dot_S2000x128_S128x128_S2000x128_1_0_0_1_n_n.rhsIdx_val_of_single rfl (ix2 p q) _).trans hk
      | ⟨1, _⟩ => exact matmul128_rhs1 _ _)
  rw [el, er]

private theorem matmul256_lhs0 (i : S2000x256.Idx) (c : dot_S2000x128_S128x256_S2000x256_1_0_0_1_n_n.contr.Idx) : (dot_S2000x128_S128x256_S2000x256_1_0_0_1_n_n.lhsIdx i c 0).val = (i 0).val := by
  unfold DotDims.lhsIdx
  rw [dif_neg (show ¬(0 : Fin S2000x128.rank) ∈ dot_S2000x128_S128x256_S2000x256_1_0_0_1_n_n.lhsBatch by decide),
    dif_pos (show (0 : Fin S2000x128.rank) ∈ dot_S2000x128_S128x256_S2000x256_1_0_0_1_n_n.lhsNonContracting by decide)]
  rfl

private theorem matmul256_rhs1 (i : S2000x256.Idx) (c : dot_S2000x128_S128x256_S2000x256_1_0_0_1_n_n.contr.Idx) : (dot_S2000x128_S128x256_S2000x256_1_0_0_1_n_n.rhsIdx i c 1).val = (i 1).val := by
  unfold DotDims.rhsIdx
  rw [dif_neg (show ¬(1 : Fin S128x256.rank) ∈ dot_S2000x128_S128x256_S2000x256_1_0_0_1_n_n.rhsBatch by decide),
    dif_pos (show (1 : Fin S128x256.rank) ∈ dot_S2000x128_S128x256_S2000x256_1_0_0_1_n_n.rhsNonContracting by decide)]
  rfl

/-- The product of a `2000 × 128` matrix with a `128 × 256` one, accumulated into zero, reads at `(p, q)` the sum over
    `k` of the products of the entries `(p, k)` and `(k, q)`. -/
private theorem matmul256_apply {φ₁ φ₂ : FTy} (A : FVec Ideal S2000x128 φ₁) (W : FVec Ideal S128x256 φ₂) (p : Fin 2000) (q : Fin 256) :
    matmul dot_S2000x128_S128x256_S2000x256_1_0_0_1_n_n none A W (constant (F := Ideal) S2000x256 .f32 0x00000000#32) (ix2 p q)
      = ∑ k : Fin 128, A (ix2 p k) * W (ix2 k q) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k :=
    funext fun a => Fin.ext (by
      match a with
      | ⟨0, _⟩ => exact matmul256_lhs0 _ _
      | ⟨1, _⟩ => exact (dot_S2000x128_S128x256_S2000x256_1_0_0_1_n_n.lhsIdx_val_of_single rfl (ix2 p q) _).trans hk)
  have er : dot_S2000x128_S128x256_S2000x256_1_0_0_1_n_n.rhsIdx (ix2 p q) ((contrEquiv1 dot_S2000x128_S128x256_S2000x256_1_0_0_1_n_n 128 rfl rfl).symm k) = ix2 k q :=
    funext fun a => Fin.ext (by
      match a with
      | ⟨0, _⟩ => exact (dot_S2000x128_S128x256_S2000x256_1_0_0_1_n_n.rhsIdx_val_of_single rfl (ix2 p q) _).trans hk
      | ⟨1, _⟩ => exact matmul256_rhs1 _ _)
  rw [el, er]

/-! ## The scaling to unit length, read at an entry -/

/-- A square root of a matrix reads, at an entry, the square root of the entry. -/
private theorem sqrt_apply {s : Shape} (x : FVec Ideal s .f32) (i : s.Idx) : sqrt x i = Ideal.sqrt (x i) := rfl

/-- A `2000 × D` matrix `O` divided, row by row, by the floored Euclidean length of the row reads, at `(p, q)`, the
    unit-length scaling of row `p` at `q`. -/
private theorem scaled_apply {D : ℕ} (O : FVec Ideal ⟨2, ![2000, D]⟩ .f32) (o : Fin D → EReal) (p : Fin 2000)
    (hrow : ∀ j : Fin D, O (ix2 p j) = o j)
    (hr : (⟨2, ![2000, D]⟩ : Shape).Reduces [1] ⟨1, ![2000]⟩) (hφ : FKind.Formats .f32)
    (hacc : (0x00000000#32 : BitVec 32) = FKind.add.neutral .f32 hφ)
    (hc : (⟨1, ![2000]⟩ : Shape).ShapeCasts ⟨2, ![2000, 1]⟩)
    (hb : (⟨2, ![2000, 1]⟩ : Shape).Broadcasts ⟨2, ![2000, D]⟩) (q : Fin D) :
    divf O (broadcastTo ⟨2, ![2000, D]⟩
        (maximumf (sqrt (shapeCast ⟨2, ![2000, 1]⟩ (multiReduction .add [1] ⟨1, ![2000]⟩ (mulf O O) 0x00000000#32 hr hφ hacc) hc))
          (broadcast ⟨2, ![2000, 1]⟩ (Ideal.ofBits .f32 0x2B8CBCCC#32))) hb) (ix2 p q)
      = unitRow o q := by
  rw [divf_apply, colBroadcast_apply (by decide), maximumf_apply, broadcast_apply, sqrt_apply, colCast_apply, rowSum_apply,
    hrow q]
  simp only [mulf_apply, hrow]
  rfl

/-- First layer: entry `(p, q)` of the stored tile. -/
theorem pay0_apply (v0 v3 : Vec Ideal S2000x128 .f32) (v5 v7 : Vec Ideal S128x128 .f32) (v10 : Vec Ideal S1x128 .f32)
    (p : Fin 2000) (q : Fin 128) :
    k0_pay1 (F := Ideal) v0 v3 v5 v7 v10 (ix2 p q)
      = max (unitRow (combine (fun k => v0 (ix2 p k)) (fun k => v3 (ix2 p k)) (fun k j => v5 (ix2 k j)) (fun k j => v7 (ix2 k j))
          (fun j => v10 (ix2 (0 : Fin 1) j))) q) zeroWord := by
  unfold k0_pay1
  simp only [shapeCast_self, Ideal.ofBits_def]
  rw [maximumf_apply, broadcast_apply]
  refine congrArg (fun t => max t zeroWord) (scaled_apply _ _ p (fun j => ?_) _ _ _ _ _ q)
  rw [addf_apply, addf_apply, matmul128_apply, matmul128_apply, broadcastTo_1b_ab_apply]
  rfl

/-- Second layer: entry `(p, q)` of the stored tile (no clamp). -/
theorem pay1_apply (v0 v3 : Vec Ideal S2000x128 .f32) (v6 v8 : Vec Ideal S128x256 .f32) (v11 : Vec Ideal S1x256 .f32)
    (p : Fin 2000) (q : Fin 256) :
    k1_pay1 (F := Ideal) v0 v3 v6 v8 v11 (ix2 p q)
      = unitRow (combine (fun k => v0 (ix2 p k)) (fun k => v3 (ix2 p k)) (fun k j => v6 (ix2 k j)) (fun k j => v8 (ix2 k j))
          (fun j => v11 (ix2 (0 : Fin 1) j))) q := by
  unfold k1_pay1
  simp only [shapeCast_self, Ideal.ofBits_def]
  refine scaled_apply _ _ p (fun j => ?_) _ _ _ _ _ q
  rw [addf_apply, addf_apply, matmul256_apply, matmul256_apply, broadcastTo_1b_ab_apply]
  rfl

end Cert.KernelIdeal.RowValue

end
-- ==== Proof.ReferenceAtIndex.lean ====
/-
  The reference's two layer outputs, read at one entry.

  The reference computes each layer on whole arrays: two matrix products, a broadcast bias, a row-wise sum of squares, a square
  root, a floor, a quotient, and after the first layer a clamp at zero. Entry `(r, q)` of a layer's output depends only on
  row `r` of the neighbourhood means and of the layer's input: it is the unit-length scaling of the combined row (`Cert.RowSpec`).
-/
import proofs.«163023_j41927470744091_1_alg».proof.Proof.Gen.ReferenceIdeal.Read
import proofs.«163023_j41927470744091_1_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RowValue

open Idealize.ShloMosaic Idealize.ShloMosaic.ValueIdx Cert.ReferenceIdeal Cert.ReferenceIdeal.Read Cert.RowSpec

/-- The first layer's row before scaling: entry `(r, q)` is entry `q` of node `r`'s combined row. -/
private theorem row1 (x0 : FVec Ideal S50000x128 .f32) (x1 : (⟨S2x600000, .i32⟩ : BufTy).Contents (Elt Ideal))
    (x4 : FVec Ideal S128x128 .f32) (x5 : FVec Ideal S128 .f32) (x6 : FVec Ideal S128x128 .f32) (r : Fin 50000) (q : Fin 128) :
    val_main_v28 (F := Ideal) x0 x1 x4 x5 x6 (ix2 r q)
      = combine (fun k => val_main_v22 (F := Ideal) x0 x1 (ix2 r k)) (fun k => x0 (ix2 r k)) (fun k j => x4 (ix2 k j))
          (fun k j => x6 (ix2 k j)) (fun j => x5 (ix1 j)) q := by
  rw [val_main_v28_apply, val_main_v26_apply, val_main_v23_apply, val_main_v25_apply, val_main_v24_apply, val_main_v27_apply]
  generalize val_main_v22 (F := Ideal) x0 x1 = y
  -- the two products contract row `r` of the left factor against column `q` of the weights; the bias is read at `q`
  have el : ∀ k : Fin 128, lidx_main_v23 (ix2 r q) k = ix2 r k := fun k => funext fun a => Fin.ext (by match a with | ⟨0, _⟩ => rfl | ⟨1, _⟩ => rfl)
  have er : ∀ k : Fin 128, ridx_main_v23 (ix2 r q) k = ix2 k q := fun k => funext fun a => Fin.ext (by match a with | ⟨0, _⟩ => rfl | ⟨1, _⟩ => rfl)
  have el' : ∀ k : Fin 128, lidx_main_v27 (ix2 r q) k = ix2 r k := fun k => funext fun a => Fin.ext (by match a with | ⟨0, _⟩ => rfl | ⟨1, _⟩ => rfl)
  have er' : ∀ k : Fin 128, ridx_main_v27 (ix2 r q) k = ix2 k q := fun k => funext fun a => Fin.ext (by match a with | ⟨0, _⟩ => rfl | ⟨1, _⟩ => rfl)
  have eb : idx_main_v24 (idx_main_v25 (ix2 r q)) = ix1 q := funext fun a => Fin.ext (by match a with | ⟨0, _⟩ => rfl)
  rw [eb]
  unfold combine
  simp only [Ideal.addf_def, el, er, el', er']

/-- The first layer's sum of squares along row `r`, whichever entry `(r, q)` of the row asks for it. -/
private theorem sumsq1 (x0 : FVec Ideal S50000x128 .f32) (x1 : (⟨S2x600000, .i32⟩ : BufTy).Contents (Elt Ideal))
    (x4 : FVec Ideal S128x128 .f32) (x5 : FVec Ideal S128 .f32) (x6 : FVec Ideal S128x128 .f32) (r : Fin 50000) (q : Fin 128) :
    ∑ k : Fin 128, val_main_v29 (F := Ideal) x0 x1 x4 x5 x6 (idx_main_v30 (idx_main_v31 (idx_main_v35 (ix2 r q))) k)
      = ∑ j : Fin 128, combine (fun k => val_main_v22 (F := Ideal) x0 x1 (ix2 r k)) (fun k => x0 (ix2 r k)) (fun k j => x4 (ix2 k j))
          (fun k j => x6 (ix2 k j)) (fun j => x5 (ix1 j)) j * combine (fun k => val_main_v22 (F := Ideal) x0 x1 (ix2 r k)) (fun k => x0 (ix2 r k)) (fun k j => x4 (ix2 k j))
          (fun k j => x6 (ix2 k j)) (fun j => x5 (ix1 j)) j :=
  Finset.sum_congr rfl fun j _ => by
    have e : idx_main_v30 (idx_main_v31 (idx_main_v35 (ix2 r q))) j = ix2 r j := funext fun a => Fin.ext (by match a with | ⟨0, _⟩ => rfl | ⟨1, _⟩ => rfl)
    rw [e, val_main_v29_apply, row1]
    rfl

/-- First layer (after the clamp): entry `(r, q)`. -/
theorem layer1_apply (x0 : FVec Ideal S50000x128 .f32) (x1 : (⟨S2x600000, .i32⟩ : BufTy).Contents (Elt Ideal))
    (x4 : FVec Ideal S128x128 .f32) (x5 : FVec Ideal S128 .f32) (x6 : FVec Ideal S128x128 .f32) (r : Fin 50000) (q : Fin 128) :
    val_main_v37 (F := Ideal) x0 x1 x4 x5 x6 (ix2 r q)
      = max (unitRow (combine (fun k => val_main_v22 (F := Ideal) x0 x1 (ix2 r k)) (fun k => x0 (ix2 r k)) (fun k j => x4 (ix2 k j))
          (fun k j => x6 (ix2 k j)) (fun j => x5 (ix1 j))) q) zeroWord := by
  -- the sum of squares starts from zero; the quotient and the two maxima are the exact ones
  rw [val_main_v37_apply, val_main_v36_apply, val_main_v35_apply, val_main_v34_apply, val_main_v32_apply, val_main_v31_apply,
    val_main_v30_apply, val_main_cst_4_apply, Ideal.ofBits_def, Ideal.ofBits_zero_f32, zero_add, sumsq1, row1,
    val_main_v33_apply, val_main_cst_5_apply, val_main_call0_v0_apply, val_main_call0_cst_apply]
  generalize combine _ _ _ _ _ = o
  simp only [Ideal.maximumf_def, Ideal.hostDivf_def, Ideal.hostUnary_sqrt_def, Ideal.ofBits_def]
  rfl

/-- The second layer's row before scaling: entry `(r, q)` is entry `q` of node `r`'s combined row. -/
private theorem row2 (x0 : FVec Ideal S50000x128 .f32) (x1 : (⟨S2x600000, .i32⟩ : BufTy).Contents (Elt Ideal))
    (x4 : FVec Ideal S128x128 .f32) (x5 : FVec Ideal S128 .f32) (x6 : FVec Ideal S128x128 .f32)
    (x7 : FVec Ideal S128x256 .f32) (x8 : FVec Ideal S256 .f32) (x9 : FVec Ideal S128x256 .f32) (r : Fin 50000) (q : Fin 256) :
    val_main_v62 (F := Ideal) x0 x1 x4 x5 x6 x7 x8 x9 (ix2 r q)
      = combine (fun k => val_main_v56 (F := Ideal) x0 x1 x4 x5 x6 (ix2 r k)) (fun k => val_main_v37 (F := Ideal) x0 x1 x4 x5 x6 (ix2 r k))
          (fun k j => x7 (ix2 k j)) (fun k j => x9 (ix2 k j)) (fun j => x8 (ix1 j)) q := by
  rw [val_main_v62_apply, val_main_v60_apply, val_main_v57_apply, val_main_v59_apply, val_main_v58_apply, val_main_v61_apply]
  generalize val_main_v56 (F := Ideal) x0 x1 x4 x5 x6 = y
  generalize val_main_v37 (F := Ideal) x0 x1 x4 x5 x6 = h
  have el : ∀ k : Fin 128, lidx_main_v57 (ix2 r q) k = ix2 r k := fun k => funext fun a => Fin.ext (by match a with | ⟨0, _⟩ => rfl | ⟨1, _⟩ => rfl)
  have er : ∀ k : Fin 128, ridx_main_v57 (ix2 r q) k = ix2 k q := fun k => funext fun a => Fin.ext (by match a with | ⟨0, _⟩ => rfl | ⟨1, _⟩ => rfl)
  have el' : ∀ k : Fin 128, lidx_main_v61 (ix2 r q) k = ix2 r k := fun k => funext fun a => Fin.ext (by match a with | ⟨0, _⟩ => rfl | ⟨1, _⟩ => rfl)
  have er' : ∀ k : Fin 128, ridx_main_v61 (ix2 r q) k = ix2 k q := fun k => funext fun a => Fin.ext (by match a with | ⟨0, _⟩ => rfl | ⟨1, _⟩ => rfl)
  have eb : idx_main_v58 (idx_main_v59 (ix2 r q)) = ix1 q := funext fun a => Fin.ext (by match a with | ⟨0, _⟩ => rfl)
  rw [eb]
  unfold combine
  simp only [Ideal.addf_def, el, er, el', er']

/-- The second layer's sum of squares along row `r`, whichever entry `(r, q)` of the row asks for it. -/
private theorem sumsq2 (x0 : FVec Ideal S50000x128 .f32) (x1 : (⟨S2x600000, .i32⟩ : BufTy).Contents (Elt Ideal))
    (x4 : FVec Ideal S128x128 .f32) (x5 : FVec Ideal S128 .f32) (x6 : FVec Ideal S128x128 .f32)
    (x7 : FVec Ideal S128x256 .f32) (x8 : FVec Ideal S256 .f32) (x9 : FVec Ideal S128x256 .f32) (r : Fin 50000) (q : Fin 256) :
    ∑ k : Fin 256, val_main_v63 (F := Ideal) x0 x1 x4 x5 x6 x7 x8 x9 (idx_main_v64 (idx_main_v65 (idx_main_v69 (ix2 r q))) k)
      = ∑ j : Fin 256, combine (fun k => val_main_v56 (F := Ideal) x0 x1 x4 x5 x6 (ix2 r k)) (fun k => val_main_v37 (F := Ideal) x0 x1 x4 x5 x6 (ix2 r k))
          (fun k j => x7 (ix2 k j)) (fun k j => x9 (ix2 k j)) (fun j => x8 (ix1 j)) j * combine (fun k => val_main_v56 (F := Ideal) x0 x1 x4 x5 x6 (ix2 r k)) (fun k => val_main_v37 (F := Ideal) x0 x1 x4 x5 x6 (ix2 r k))
          (fun k j => x7 (ix2 k j)) (fun k j => x9 (ix2 k j)) (fun j => x8 (ix1 j)) j :=
  Finset.sum_congr rfl fun j _ => by
    have e : idx_main_v64 (idx_main_v65 (idx_main_v69 (ix2 r q))) j = ix2 r j := funext fun a => Fin.ext (by match a with | ⟨0, _⟩ => rfl | ⟨1, _⟩ => rfl)
    rw [e, val_main_v63_apply, row2]
    rfl

/-- Second layer: entry `(r, q)`. -/
theorem layer2_apply (x0 : FVec Ideal S50000x128 .f32) (x1 : (⟨S2x600000, .i32⟩ : BufTy).Contents (Elt Ideal))
    (x4 : FVec Ideal S128x128 .f32) (x5 : FVec Ideal S128 .f32) (x6 : FVec Ideal S128x128 .f32)
    (x7 : FVec Ideal S128x256 .f32) (x8 : FVec Ideal S256 .f32) (x9 : FVec Ideal S128x256 .f32) (r : Fin 50000) (q : Fin 256) :
    val_main_v70 (F := Ideal) x0 x1 x4 x5 x6 x7 x8 x9 (ix2 r q)
      = unitRow (combine (fun k => val_main_v56 (F := Ideal) x0 x1 x4 x5 x6 (ix2 r k)) (fun k => val_main_v37 (F := Ideal) x0 x1 x4 x5 x6 (ix2 r k))
          (fun k j => x7 (ix2 k j)) (fun k j => x9 (ix2 k j)) (fun j => x8 (ix1 j))) q := by
  rw [val_main_v70_apply, val_main_v69_apply, val_main_v68_apply, val_main_v66_apply, val_main_v65_apply,
    val_main_v64_apply, val_main_cst_12_apply, Ideal.ofBits_def, Ideal.ofBits_zero_f32, zero_add, sumsq2, row2,
    val_main_v67_apply, val_main_cst_13_apply]
  generalize combine _ _ _ _ _ = o
  simp only [Ideal.maximumf_def, Ideal.hostDivf_def, Ideal.hostUnary_sqrt_def, Ideal.ofBits_def]
  rfl

end Cert.ReferenceIdeal.RowValue

end
-- ==== Proof.Layer1Array.lean ====
/-
  The first layer's grid, read as one array.

  The grid has 25 points; point `t` loads rows `2000·t … 2000·t + 1999` of the neighbourhood means and of the node
  features, the whole of both weight matrices and of the bias row, and writes back the same rows of the output. So the
  rows written by different points are different rows, every row is written by exactly one point, and entry `(r, q)` of the
  output array depends only on row `r` of the inputs: it is the reference's first-layer value at `(r, q)`.
-/
import proofs.«163023_j41927470744091_1_alg».proof.Proof.Gen.KernelIdeal.Frame
import proofs.«163023_j41927470744091_1_alg».proof.Proof.PayloadAtIndex
import proofs.«163023_j41927470744091_1_alg».proof.Proof.ReferenceAtIndex
import Idealize.ShloMosaic.Lib.Pipeline.Value
import Idealize.ShloMosaic.Lib.ValueIdx
import Idealize.ShloMosaic.Lib.ValueLayout

set_option maxRecDepth 16384

noncomputable section

namespace Cert.KernelIdeal.Layer1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.RowSpec
open Cert.ReferenceIdeal.Read (val_main_v22 val_main_v37)

theorem hz : (![0, 0] : Fin 2 → Nat) = fun _ => 0 := funext fun a => by fin_cases a <;> rfl

/-- The index maps over the grid: the two row-tiled inputs move with the output's row tile, the weights and the bias stay
    at the origin, and there are 25 row tiles. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) < 25 ∧ win0_5.index t (1 : Fin 2) = 0 :=
  (by decide +kernel : ∀ t : Fin grid0.N, _)

/-- Every row tile is some point's. -/
theorem idx_onto : ∀ q0 : Fin 25, ∃ t : Fin cfg0.N, win0_5.index t = ![q0.val, 0] :=
  (by decide +kernel : ∀ q0 : Fin 25, ∃ t : Fin grid0.N, win0_5.index t = ![q0.val, 0])

/-- Row `p` of point `t`'s tile is row `2000 · t + p` of the array. -/
def rowOf (t : Fin cfg0.N) (p : Fin 2000) : Fin 50000 :=
  ⟨win0_5.index t (0 : Fin 2) * 2000 + p.val, by
    have h := (idx_facts t).2.2.2.2.2.2.2.2.2.2.1; have hp := p.isLt; omega⟩

/-- Where the output tile's entry `(p, q)` sits in the output array. -/
theorem emb_out (t : Fin cfg0.N) (p : Fin 2000) (q : Fin 128) :
    ((cfg0.win 5).blk t).view.emb (ix2 p q) = ix2 (rowOf t p) q := by
  obtain ⟨-, -, -, -, -, -, -, -, -, -, -, e51⟩ := idx_facts t
  funext a; apply Fin.ext
  match a with
  | ⟨0, _⟩ => show win0_5.index t (0 : Fin 2) * 2000 + 1 * p.val = win0_5.index t (0 : Fin 2) * 2000 + p.val; omega
  | ⟨1, _⟩ => show win0_5.index t (1 : Fin 2) * 128 + 1 * q.val = q.val; omega

/-- Where the means tile's entry `(p, k)` sits in the means array: the same row as the output's. -/
theorem emb_mean (t : Fin cfg0.N) (p : Fin 2000) (k : Fin 128) :
    ((cfg0.win 0).blk t).view.emb (ix2 p k) = ix2 (rowOf t p) k := by
  obtain ⟨e00, e01, -⟩ := idx_facts t
  funext a; apply Fin.ext
  match a with
  | ⟨0, _⟩ => show win0_0.index t (0 : Fin 2) * 2000 + 1 * p.val = win0_5.index t (0 : Fin 2) * 2000 + p.val; omega
  | ⟨1, _⟩ => show win0_0.index t (1 : Fin 2) * 128 + 1 * k.val = k.val; omega

/-- Where the input tile's entry `(p, k)` sits in the layer's input array: the same row again. -/
theorem emb_in (t : Fin cfg0.N) (p : Fin 2000) (k : Fin 128) :
    ((cfg0.win 1).blk t).view.emb (ix2 p k) = ix2 (rowOf t p) k := by
  obtain ⟨-, -, e10, e11, -⟩ := idx_facts t
  funext a; apply Fin.ext
  match a with
  | ⟨0, _⟩ => show win0_1.index t (0 : Fin 2) * 2000 + 1 * p.val = win0_5.index t (0 : Fin 2) * 2000 + p.val; omega
  | ⟨1, _⟩ => show win0_1.index t (1 : Fin 2) * 128 + 1 * k.val = k.val; omega

/-- The first weight matrix is loaded whole at every point. -/
theorem emb_wl (t : Fin cfg0.N) (k : Fin 128) (j : Fin 128) :
    ((cfg0.win 2).blk t).view.emb (ix2 k j) = ix2 k j := by
  obtain ⟨-, -, -, -, e20, e21, -⟩ := idx_facts t
  funext a; apply Fin.ext
  match a with
  | ⟨0, _⟩ => show win0_2.index t (0 : Fin 2) * 128 + 1 * k.val = k.val; omega
  | ⟨1, _⟩ => show win0_2.index t (1 : Fin 2) * 128 + 1 * j.val = j.val; omega

/-- So is the bias row. -/
theorem emb_bias (t : Fin cfg0.N) (j : Fin 128) :
    ((cfg0.win 3).blk t).view.emb (ix2 (0 : Fin 1) j) = ix2 (0 : Fin 1) j := by
  obtain ⟨-, -, -, -, -, -, e30, e31, -⟩ := idx_facts t
  funext a; apply Fin.ext
  match a with
  | ⟨0, _⟩ => show win0_3.index t (0 : Fin 2) * 1 + 1 * 0 = 0; omega
  | ⟨1, _⟩ => show win0_3.index t (1 : Fin 2) * 128 + 1 * j.val = j.val; omega

/-- And the second weight matrix. -/
theorem emb_wr (t : Fin cfg0.N) (k : Fin 128) (j : Fin 128) :
    ((cfg0.win 4).blk t).view.emb (ix2 k j) = ix2 k j := by
  obtain ⟨-, -, -, -, -, -, -, -, e40, e41, -⟩ := idx_facts t
  funext a; apply Fin.ext
  match a with
  | ⟨0, _⟩ => show win0_4.index t (0 : Fin 2) * 128 + 1 * k.val = k.val; omega
  | ⟨1, _⟩ => show win0_4.index t (1 : Fin 2) * 128 + 1 * j.val = j.val; omega

variable (V : (c : Dev nD) → (b : Ref sig .tc) → Buf (Elt Ideal) ((c : Thread nD τ).loc b))

/-- What point `t` writes back is tile `t` of the reference's array for this layer: entry `(p, q)` of the stored tile and entry
    `(2000 · t + p, q)` of the reference's array are the same function of row `2000 · t + p` of the inputs. -/
theorem flushed_eq (c : Dev nD) (a0 : FVec Ideal S50000x128 .f32) (a1 : (⟨S2x600000, .i32⟩ : BufTy).Contents (Elt Ideal))
    (a4 : FVec Ideal S128x128 .f32) (a5 : FVec Ideal S128 .f32) (a6 : FVec Ideal S128x128 .f32)
    (hmean : (V c main_v22 : FVec Ideal S50000x128 .f32) = val_main_v22 (F := Ideal) a0 a1)
    (hx : (V c main_arg0 : FVec Ideal S50000x128 .f32) = a0)
    (hwl : (V c main_arg4 : FVec Ideal S128x128 .f32) = a4)
    (hb : (V c main_v23 : FVec Ideal S1x128 .f32) = shapeCast S1x128 a5 shapeCasts_S128_S1x128)
    (hwr : (V c main_arg6 : FVec Ideal S128x128 .f32) = a6) (t : Fin cfg0.N) :
    (dat0 V c).flushed 5 t = ((cfg0.win 5).blk t).view.read (Elt Ideal) (val_main_v37 (F := Ideal) a0 a1 a4 a5 a6) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k0_pay1 (iblk0 V c 0 t) (iblk0 V c 1 t) (iblk0 V c 2 t) (iblk0 V c 4 t) (iblk0 V c 3 t) (ix2 p q)
    = (val_main_v37 (F := Ideal) a0 a1 a4 a5 a6) (((cfg0.win 5).blk t).view.emb (ix2 p q))
  rw [emb_out, Cert.KernelIdeal.RowValue.pay0_apply, Cert.ReferenceIdeal.RowValue.layer1_apply]
  have h1 : (fun k : Fin 128 => iblk0 V c 0 t (ix2 p k)) = fun k => (val_main_v22 (F := Ideal) a0 a1) (ix2 (rowOf t p) k) := by
    funext k
    show V c main_v22 (((cfg0.win 0).blk t).view.emb (ix2 p k)) = _
    rw [emb_mean, hmean]
  have h2 : (fun k : Fin 128 => iblk0 V c 1 t (ix2 p k)) = fun k => (a0) (ix2 (rowOf t p) k) := by
    funext k
    show V c main_arg0 (((cfg0.win 1).blk t).view.emb (ix2 p k)) = _
    rw [emb_in, hx]
  have h3 : (fun (k : Fin 128) (j : Fin 128) => iblk0 V c 2 t (ix2 k j)) = fun k j => a4 (ix2 k j) := by
    funext k j
    show V c main_arg4 (((cfg0.win 2).blk t).view.emb (ix2 k j)) = _
    rw [emb_wl, hwl]
  have h4 : (fun (k : Fin 128) (j : Fin 128) => iblk0 V c 4 t (ix2 k j)) = fun k j => a6 (ix2 k j) := by
    funext k j
    show V c main_arg6 (((cfg0.win 4).blk t).view.emb (ix2 k j)) = _
    rw [emb_wr, hwr]
  have h5 : (fun j : Fin 128 => iblk0 V c 3 t (ix2 (0 : Fin 1) j)) = fun j => a5 (ix1 j) := by
    funext j
    show V c main_v23 (((cfg0.win 3).blk t).view.emb (ix2 (0 : Fin 1) j)) = _
    rw [emb_bias, hb]
    exact shapeCast_a_1a_apply a5 _ (0 : Fin 1) j
  rw [h1, h2, h3, h4, h5]

/-- An index of the output array lies in point `t`'s tile iff each coordinate is in the tile's range on its axis. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v24).slice (win0_5.rect t)).set ↔ _
  rw [View.set_slice_whole, Rect.mem_set_unit]
  exact Iff.rfl

/-- Every entry of the output array is written by the point of its row's tile. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The output array after the grid is the reference's array for this layer. -/
theorem final (c : Dev nD) (a0 : FVec Ideal S50000x128 .f32) (a1 : (⟨S2x600000, .i32⟩ : BufTy).Contents (Elt Ideal))
    (a4 : FVec Ideal S128x128 .f32) (a5 : FVec Ideal S128 .f32) (a6 : FVec Ideal S128x128 .f32)
    (hmean : (V c main_v22 : FVec Ideal S50000x128 .f32) = val_main_v22 (F := Ideal) a0 a1)
    (hx : (V c main_arg0 : FVec Ideal S50000x128 .f32) = a0)
    (hwl : (V c main_arg4 : FVec Ideal S128x128 .f32) = a4)
    (hb : (V c main_v23 : FVec Ideal S1x128 .f32) = shapeCast S1x128 a5 shapeCasts_S128_S1x128)
    (hwr : (V c main_arg6 : FVec Ideal S128x128 .f32) = a6) :
    (dat0 V c).arrAt 5 cfg0.N = (val_main_v37 (F := Ideal) a0 a1 a4 a5 a6) :=
  (dat0 V c).arrAt_eq_of_cover 5 (val_main_v37 (F := Ideal) a0 a1 a4 a5 a6) (fun t _ => flushed_eq V c a0 a1 a4 a5 a6 hmean hx hwl hb hwr t) cover

end Cert.KernelIdeal.Layer1

end
-- ==== Proof.Layer2Array.lean ====
/-
  The second layer's grid, read as one array.

  As in the first layer the grid has 25 points and point `t` owns rows `2000·t … 2000·t + 1999`: it loads those rows of
  the second neighbourhood means and of the first layer's output, the whole of the second pair of weight matrices and of
  their bias row, and writes back the same rows of a 256-wide output. Entry `(r, q)` of the output array depends only on row
  `r` of the two inputs: it is the reference's second-layer value at `(r, q)`.
-/
import proofs.«163023_j41927470744091_1_alg».proof.Proof.Gen.KernelIdeal.Frame
import proofs.«163023_j41927470744091_1_alg».proof.Proof.PayloadAtIndex
import proofs.«163023_j41927470744091_1_alg».proof.Proof.ReferenceAtIndex
import Idealize.ShloMosaic.Lib.Pipeline.Value
import Idealize.ShloMosaic.Lib.ValueIdx
import Idealize.ShloMosaic.Lib.ValueLayout

set_option maxRecDepth 16384

noncomputable section

namespace Cert.KernelIdeal.Layer2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.RowSpec
open Cert.ReferenceIdeal.Read (val_main_v37 val_main_v56 val_main_v70)

theorem hz : (![0, 0] : Fin 2 → Nat) = fun _ => 0 := funext fun a => by fin_cases a <;> rfl

/-- The index maps over the grid: the two row-tiled inputs move with the output's row tile, the weights and the bias stay
    at the origin, and there are 25 row tiles. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) < 25 ∧ win1_5.index t (1 : Fin 2) = 0 :=
  (by decide +kernel : ∀ t : Fin grid1.N, _)

/-- Every row tile is some point's. -/
theorem idx_onto : ∀ q0 : Fin 25, ∃ t : Fin cfg1.N, win1_5.index t = ![q0.val, 0] :=
  (by decide +kernel : ∀ q0 : Fin 25, ∃ t : Fin grid1.N, win1_5.index t = ![q0.val, 0])

/-- Row `p` of point `t`'s tile is row `2000 · t + p` of the array. -/
def rowOf (t : Fin cfg1.N) (p : Fin 2000) : Fin 50000 :=
  ⟨win1_5.index t (0 : Fin 2) * 2000 + p.val, by
    have h := (idx_facts t).2.2.2.2.2.2.2.2.2.2.1; have hp := p.isLt; omega⟩

/-- Where the output tile's entry `(p, q)` sits in the output array. -/
theorem emb_out (t : Fin cfg1.N) (p : Fin 2000) (q : Fin 256) :
    ((cfg1.win 5).blk t).view.emb (ix2 p q) = ix2 (rowOf t p) q := by
  obtain ⟨-, -, -, -, -, -, -, -, -, -, -, e51⟩ := idx_facts t
  funext a; apply Fin.ext
  match a with
  | ⟨0, _⟩ => show win1_5.index t (0 : Fin 2) * 2000 + 1 * p.val = win1_5.index t (0 : Fin 2) * 2000 + p.val; omega
  | ⟨1, _⟩ => show win1_5.index t (1 : Fin 2) * 256 + 1 * q.val = q.val; omega

/-- Where the means tile's entry `(p, k)` sits in the means array: the same row as the output's. -/
theorem emb_mean (t : Fin cfg1.N) (p : Fin 2000) (k : Fin 128) :
    ((cfg1.win 0).blk t).view.emb (ix2 p k) = ix2 (rowOf t p) k := by
  obtain ⟨e00, e01, -⟩ := idx_facts t
  funext a; apply Fin.ext
  match a with
  | ⟨0, _⟩ => show win1_0.index t (0 : Fin 2) * 2000 + 1 * p.val = win1_5.index t (0 : Fin 2) * 2000 + p.val; omega
  | ⟨1, _⟩ => show win1_0.index t (1 : Fin 2) * 128 + 1 * k.val = k.val; omega

/-- Where the input tile's entry `(p, k)` sits in the layer's input array: the same row again. -/
theorem emb_in (t : Fin cfg1.N) (p : Fin 2000) (k : Fin 128) :
    ((cfg1.win 1).blk t).view.emb (ix2 p k) = ix2 (rowOf t p) k := by
  obtain ⟨-, -, e10, e11, -⟩ := idx_facts t
  funext a; apply Fin.ext
  match a with
  | ⟨0, _⟩ => show win1_1.index t (0 : Fin 2) * 2000 + 1 * p.val = win1_5.index t (0 : Fin 2) * 2000 + p.val; omega
  | ⟨1, _⟩ => show win1_1.index t (1 : Fin 2) * 128 + 1 * k.val = k.val; omega

/-- The first weight matrix is loaded whole at every point. -/
theorem emb_wl (t : Fin cfg1.N) (k : Fin 128) (j : Fin 256) :
    ((cfg1.win 2).blk t).view.emb (ix2 k j) = ix2 k j := by
  obtain ⟨-, -, -, -, e20, e21, -⟩ := idx_facts t
  funext a; apply Fin.ext
  match a with
  | ⟨0, _⟩ => show win1_2.index t (0 : Fin 2) * 128 + 1 * k.val = k.val; omega
  | ⟨1, _⟩ => show win1_2.index t (1 : Fin 2) * 256 + 1 * j.val = j.val; omega

/-- So is the bias row. -/
theorem emb_bias (t : Fin cfg1.N) (j : Fin 256) :
    ((cfg1.win 3).blk t).view.emb (ix2 (0 : Fin 1) j) = ix2 (0 : Fin 1) j := by
  obtain ⟨-, -, -, -, -, -, e30, e31, -⟩ := idx_facts t
  funext a; apply Fin.ext
  match a with
  | ⟨0, _⟩ => show win1_3.index t (0 : Fin 2) * 1 + 1 * 0 = 0; omega
  | ⟨1, _⟩ => show win1_3.index t (1 : Fin 2) * 256 + 1 * j.val = j.val; omega

/-- And the second weight matrix. -/
theorem emb_wr (t : Fin cfg1.N) (k : Fin 128) (j : Fin 256) :
    ((cfg1.win 4).blk t).view.emb (ix2 k j) = ix2 k j := by
  obtain ⟨-, -, -, -, -, -, -, -, e40, e41, -⟩ := idx_facts t
  funext a; apply Fin.ext
  match a with
  | ⟨0, _⟩ => show win1_4.index t (0 : Fin 2) * 128 + 1 * k.val = k.val; omega
  | ⟨1, _⟩ => show win1_4.index t (1 : Fin 2) * 256 + 1 * j.val = j.val; omega

variable (V : (c : Dev nD) → (b : Ref sig .tc) → Buf (Elt Ideal) ((c : Thread nD τ).loc b))

/-- What point `t` writes back is tile `t` of the reference's array for this layer: entry `(p, q)` of the stored tile and entry
    `(2000 · t + p, q)` of the reference's array are the same function of row `2000 · t + p` of the inputs. -/
theorem flushed_eq (c : Dev nD) (a0 : FVec Ideal S50000x128 .f32) (a1 : (⟨S2x600000, .i32⟩ : BufTy).Contents (Elt Ideal))
    (a4 : FVec Ideal S128x128 .f32) (a5 : FVec Ideal S128 .f32) (a6 : FVec Ideal S128x128 .f32)
    (a7 : FVec Ideal S128x256 .f32) (a8 : FVec Ideal S256 .f32) (a9 : FVec Ideal S128x256 .f32)
    (hmean : (V c main_v39 : FVec Ideal S50000x128 .f32) = val_main_v56 (F := Ideal) a0 a1 a4 a5 a6)
    (hx : (V c main_v24 : FVec Ideal S50000x128 .f32) = val_main_v37 (F := Ideal) a0 a1 a4 a5 a6)
    (hwl : (V c main_arg7 : FVec Ideal S128x256 .f32) = a7)
    (hb : (V c main_v40 : FVec Ideal S1x256 .f32) = shapeCast S1x256 a8 shapeCasts_S256_S1x256)
    (hwr : (V c main_arg9 : FVec Ideal S128x256 .f32) = a9) (t : Fin cfg1.N) :
    (dat1 V c).flushed 5 t = ((cfg1.win 5).blk t).view.read (Elt Ideal) (val_main_v70 (F := Ideal) a0 a1 a4 a5 a6 a7 a8 a9) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x256) hz, View.ld_unit_zero (S := S1x256) hz]
  funext j
  obtain ⟨p, q, rfl⟩ : ∃ (p : Fin 2000) (q : Fin 256), j = ix2 p q := ⟨j 0, j 1, eq_ix2 j⟩
  show k1_pay1 (iblk1 V c 0 t) (iblk1 V c 1 t) (iblk1 V c 2 t) (iblk1 V c 4 t) (iblk1 V c 3 t) (ix2 p q)
    = (val_main_v70 (F := Ideal) a0 a1 a4 a5 a6 a7 a8 a9) (((cfg1.win 5).blk t).view.emb (ix2 p q))
  rw [emb_out, Cert.KernelIdeal.RowValue.pay1_apply, Cert.ReferenceIdeal.RowValue.layer2_apply]
  have h1 : (fun k : Fin 128 => iblk1 V c 0 t (ix2 p k)) = fun k => (val_main_v56 (F := Ideal) a0 a1 a4 a5 a6) (ix2 (rowOf t p) k) := by
    funext k
    show V c main_v39 (((cfg1.win 0).blk t).view.emb (ix2 p k)) = _
    rw [emb_mean, hmean]
  have h2 : (fun k : Fin 128 => iblk1 V c 1 t (ix2 p k)) = fun k => (val_main_v37 (F := Ideal) a0 a1 a4 a5 a6) (ix2 (rowOf t p) k) := by
    funext k
    show V c main_v24 (((cfg1.win 1).blk t).view.emb (ix2 p k)) = _
    rw [emb_in, hx]
  have h3 : (fun (k : Fin 128) (j : Fin 256) => iblk1 V c 2 t (ix2 k j)) = fun k j => a7 (ix2 k j) := by
    funext k j
    show V c main_arg7 (((cfg1.win 2).blk t).view.emb (ix2 k j)) = _
    rw [emb_wl, hwl]
  have h4 : (fun (k : Fin 128) (j : Fin 256) => iblk1 V c 4 t (ix2 k j)) = fun k j => a9 (ix2 k j) := by
    funext k j
    show V c main_arg9 (((cfg1.win 4).blk t).view.emb (ix2 k j)) = _
    rw [emb_wr, hwr]
  have h5 : (fun j : Fin 256 => iblk1 V c 3 t (ix2 (0 : Fin 1) j)) = fun j => a8 (ix1 j) := by
    funext j
    show V c main_v40 (((cfg1.win 3).blk t).view.emb (ix2 (0 : Fin 1) j)) = _
    rw [emb_bias, hb]
    exact shapeCast_a_1a_apply a8 _ (0 : Fin 1) j
  rw [h1, h2, h3, h4, h5]

/-- An index of the output array lies in point `t`'s tile iff each coordinate is in the tile's range on its axis. -/
theorem mem_blk (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v41).slice (win1_5.rect t)).set ↔ _
  rw [View.set_slice_whole, Rect.mem_set_unit]
  exact Iff.rfl

/-- Every entry of the output array is written by the point of its row's tile. -/
theorem cover (i : S50000x256.Idx) : ∃ t : Fin cfg1.N, (cfg1.win 5).flush t = true ∧ i ∈ ((cfg1.win 5).blk t).view.set := by
  have hi0 : (i 0).val < 50000 := (i 0).isLt
  have hi1 : (i 1).val < 256 := (i 1).isLt
  obtain ⟨t, ht⟩ := idx_onto ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

/-- The output array after the grid is the reference's array for this layer. -/
theorem final (c : Dev nD) (a0 : FVec Ideal S50000x128 .f32) (a1 : (⟨S2x600000, .i32⟩ : BufTy).Contents (Elt Ideal))
    (a4 : FVec Ideal S128x128 .f32) (a5 : FVec Ideal S128 .f32) (a6 : FVec Ideal S128x128 .f32)
    (a7 : FVec Ideal S128x256 .f32) (a8 : FVec Ideal S256 .f32) (a9 : FVec Ideal S128x256 .f32)
    (hmean : (V c main_v39 : FVec Ideal S50000x128 .f32) = val_main_v56 (F := Ideal) a0 a1 a4 a5 a6)
    (hx : (V c main_v24 : FVec Ideal S50000x128 .f32) = val_main_v37 (F := Ideal) a0 a1 a4 a5 a6)
    (hwl : (V c main_arg7 : FVec Ideal S128x256 .f32) = a7)
    (hb : (V c main_v40 : FVec Ideal S1x256 .f32) = shapeCast S1x256 a8 shapeCasts_S256_S1x256)
    (hwr : (V c main_arg9 : FVec Ideal S128x256 .f32) = a9) :
    (dat1 V c).arrAt 5 cfg1.N = (val_main_v70 (F := Ideal) a0 a1 a4 a5 a6 a7 a8 a9) :=
  (dat1 V c).arrAt_eq_of_cover 5 (val_main_v70 (F := Ideal) a0 a1 a4 a5 a6 a7 a8 a9) (fun t _ => flushed_eq V c a0 a1 a4 a5 a6 a7 a8 a9 hmean hx hwl hb hwr t) cover

end Cert.KernelIdeal.Layer2

end
-- ==== Proof.KernelValue.lean ====
/-
  The idealized kernel's result as a function of its arguments.

  The first stretch of host operations leaves the reference's neighbourhood means; the first grid, tile by tile, the
  reference's first-layer array; the second stretch the reference's second means; the second grid the reference's second-layer
  array; and the last stretch, pooling and the logistic function, the reference's result. So every weakly fair execution
  of the idealized kernel ends with its result buffer at the reference's last stage, applied to the kernel's own arguments.
-/
import proofs.«163023_j41927470744091_1_alg».proof.Proof.KernelRun
import proofs.«163023_j41927470744091_1_alg».proof.Proof.KernelFold
import proofs.«163023_j41927470744091_1_alg».proof.Proof.Layer1Array
import proofs.«163023_j41927470744091_1_alg».proof.Proof.Layer2Array

set_option maxRecDepth 16384

noncomputable section

namespace Cert.KernelIdeal.Result

open Idealize.ShloMosaic Idealize.ShloMosaic.TcCoe Idealize.SL.Sem
open Cert.KernelIdeal Cert.KernelIdeal.Gen
open Cert.ReferenceIdeal.Read (val_main_v22 val_main_v37 val_main_v56 val_main_v70 val_main_v92)

variable (m : (ℓ : Loc nD τ sig) → Buf (Elt Ideal) ℓ) (ρ : Dev nD → PrngReg)

/-- After the first grid its output array is the reference's first-layer array. -/
theorem layer1_array (c : Dev nD) :
    (W2 m ρ c (Proc.devRef .tc main_v24) : FVec Ideal S50000x128 .f32) = val_main_v37 (F := Ideal) (m ((c : Thread nD τ).loc main_arg0)) (m ((c : Thread nD τ).loc main_arg1)) (m ((c : Thread nD τ).loc main_arg4)) (m ((c : Thread nD τ).loc main_arg5)) (m ((c : Thread nD τ).loc main_arg6)) :=
  (W2_arr m ρ c 5).trans
    (Layer1.final (V1 m ρ) c (m ((c : Thread nD τ).loc main_arg0)) (m ((c : Thread nD τ).loc main_arg1)) (m ((c : Thread nD τ).loc main_arg4)) (m ((c : Thread nD τ).loc main_arg5)) (m ((c : Thread nD τ).loc main_arg6))
      (Fold.W1_mean m ρ c) (Fold.W1_arg0 m ρ c) (Fold.W1_arg4 m ρ c) (Fold.W1_bias m ρ c) (Fold.W1_arg6 m ρ c))

/-- After the second grid its output array is the reference's second-layer array. -/
theorem layer2_array (c : Dev nD) :
    (W4 m ρ c (Proc.devRef .tc main_v41) : FVec Ideal S50000x256 .f32) = val_main_v70 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W4_arr m ρ c 5).trans
    (Layer2.final (V3 m ρ) c (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      (Fold.W3_mean m ρ c (layer1_array m ρ c)) (Fold.W3_layer1 m ρ c (layer1_array m ρ c)) (Fold.W3_arg7 m ρ c)
      (Fold.W3_bias m ρ c) (Fold.W3_arg9 m ρ c))

/-- The result buffer at the last boundary holds the reference's last stage of the kernel's arguments. -/
theorem value (c : Dev nD) :
    (W5 m ρ c (Proc.devRef .tc main_v63) : FVec Ideal S1024x1 .f32) = val_main_v92 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  Fold.W5_result m ρ c (layer2_array m ρ c)

/-- Every weakly fair execution terminates, nothing faulting, with the result at that value and the arguments unchanged. -/
theorem run_value : θ_run defs (onTc (τ := τ) (main (F := Ideal))) ⟨m, fun _ => 0, ρ⟩ (fun r => ∀ c : Dev nD,
      r.2.mem ((c.tc : Thread nD τ).loc main_v63) = val_main_v92 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (value m ρ c), (h c).2⟩) (run m ρ)

end Cert.KernelIdeal.Result

end
-- ==== Proof.lean ====
/-
  Two graph-convolution layers, a mean pool and a logistic output: the kernel against its reference, over the extended reals.

  Both programs compute, for every node, the mean of its incoming neighbours' features (a gather along the edges, a sum
  into the targets, a division by the edge count floored at one), then twice the layer
  `out = mean · W_l + b + x · W_r`, `out / max(√(Σ out²), 10⁻¹²)` (clamped at zero after the first layer, the means retaken
  from the first layer's output before the second), then the mean over each graph's nodes, a last product with a
  column of weights, and the logistic function. The kernel runs the two layers as grids of 25 row tiles, its two products
  on operands narrowed to half precision and accumulated from zero, its sum of squares along the lanes; the reference runs
  them on whole arrays. Over the extended reals a change of format is the identity, and a product accumulated from zero, a
  lane sum and a host sum are plain finite sums, so entry by entry each layer is one function of one row of its inputs
  (`Cert.RowSpec`), and everything outside the layers is the same sequence of host operations on both sides. No law that
  needs finiteness is used: the precondition is never opened.

  The kernel's frames are the generated ones; the idealization rewrote nothing, so it preserves trivially; the reference's
  frame is its generated run with the result dropped.
-/
import proofs.«163023_j41927470744091_1_alg».proof.Defs
import proofs.«163023_j41927470744091_1_alg».proof.Proof.Gen.Kernel
import proofs.«163023_j41927470744091_1_alg».proof.Proof.Gen.Kernel.Frame
import proofs.«163023_j41927470744091_1_alg».proof.Proof.Gen.KernelIdeal
import proofs.«163023_j41927470744091_1_alg».proof.Proof.Gen.KernelIdeal.Frame
import proofs.«163023_j41927470744091_1_alg».proof.Proof.Gen.ReferenceIdeal
import proofs.«163023_j41927470744091_1_alg».proof.Proof.Gen.Pre_finite_inputs
import proofs.«163023_j41927470744091_1_alg».proof.Proof.Gen.ReferenceIdeal.Run
import proofs.«163023_j41927470744091_1_alg».proof.Proof.Gen.ReferenceIdeal.Read
import proofs.«163023_j41927470744091_1_alg».proof.Proof.KernelValue
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories agreeing on the arguments both programs end with their results at the reference's last stage of
    those arguments: the kernel by its run read through the fold, the reference by its own run. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Result.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.Read.val_main_v92_eq, e0, e1, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
